-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x1x2048x2048 : Shape := ⟨4, ![2, 1, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) (main_arg3 : IVec S2x1x2048x2048 1) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S2x1x2048x2048 : Shape := ⟨4, ![2, 1, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S2x16x2048x64, .bf16⟩
  | .hbm, ⟨5, _⟩ => ⟨S2x16x2048x64, .bf16⟩
  | .hbm, ⟨6, _⟩ => ⟨S2x1x2048x2048, .i32⟩
  | .hbm, ⟨7, _⟩ => ⟨S2x16x2048x64, .f32⟩
  | .hbm, ⟨8, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .bf16⟩
  | .local _ .vmem, ⟨3, _⟩ => ⟨S1x1x2048x64, .bf16⟩
  | .local _ .vmem, ⟨4, _⟩ => ⟨S1x1x2048x64, .bf16⟩
  | .local _ .vmem, ⟨5, _⟩ => ⟨S1x1x2048x64, .bf16⟩
  | .local _ .vmem, ⟨6, _⟩ => ⟨S1x1x512x2048, .i32⟩
  | .local _ .vmem, ⟨7, _⟩ => ⟨S1x1x512x2048, .i32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x512x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  bitsLt_bf16_f32 : FTy.bits .bf16 < FTy.bits .f32
  natLt_1_32 : 1 < 32
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S512x64_S1x1x512x64 : S512x64.ShapeCasts S1x1x512x64
  shapeCasts_S512x2048_S1x1x512x2048 : S512x2048.ShapeCasts S1x1x512x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .bf16 = 32 ∨ (Rect.block (s := S2x16x2048x64) S1x1x2048x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .bf16 = 32 ∨ (Rect.block (s := S2x16x2048x64) S1x1x2048x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512x2048.size a ≤ S2x1x2048x2048.size a
  hwx0_3 : ∀ i : grid0.Coords, EltTy.bits .i32 = 32 ∨ (Rect.block (s := S2x1x2048x2048) S1x1x512x2048.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x1x2048x2048 : Shape := ⟨4, ![2, 1, 2048, 2048]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 30
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x1x2048x2048, .i1⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x16x2048x64, .f32⟩
  | .hbm, ⟨9, _⟩ => ⟨S2x16x2048x64, .f32⟩
  | .hbm, ⟨10, _⟩ => ⟨S2x16x2048x2048, .f32⟩
  | .hbm, ⟨11, _⟩ => ⟨S_, .f32⟩
  | .hbm, ⟨12, _⟩ => ⟨S2x16x2048x2048, .i1⟩
  | .hbm, ⟨13, _⟩ => ⟨S2x16x2048x2048, .f32⟩
  | .hbm, ⟨14, _⟩ => ⟨S2x16x2048x2048, .f32⟩
  | .hbm, ⟨15, _⟩ => ⟨S_, .f32⟩
  | .hbm, ⟨16, _⟩ => ⟨S2x16x2048, .f32⟩
  | .hbm, ⟨17, _⟩ => ⟨S_, .f32⟩
  | .hbm, ⟨18, _⟩ => ⟨S2x16x2048, .f32⟩
  | .hbm, ⟨19, _⟩ => ⟨S2x16x2048, .f32⟩
  | .hbm, ⟨20, _⟩ => ⟨S2x16x2048x1, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S2x16x2048x1, .f32⟩
  | .hbm, ⟨27, _⟩ => ⟨S2x16x2048x2048, .f32⟩
  | .hbm, ⟨28, _⟩ => ⟨S2x16x2048x2048, .f32⟩
  | .hbm, ⟨29, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S_S2x16x2048x64 : S_.BroadcastsInDim S2x16x2048x64 (![] : Fin 0 → Fin S2x16x2048x64.rank)
  bcast_S2x1x2048x2048_S2x16x2048x2048_0_1_2_3 : S2x1x2048x2048.BroadcastsInDim S2x16x2048x2048 (![0, 1, 2, 3] : Fin 4 → Fin S2x16x2048x2048.rank)
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowMax.lean ====
/-
  The maximum along the rows of an [a, b] array, started from −∞, read at a row.

  A kernel takes it as a lane reduction whose accumulator is the word of −∞, the host as a one-operand reduce whose
  initial value is the scalar constant −∞. On the extended reals both are, at row p, the maximum over k of the entries
  (p, k), with −∞ (the bottom element) the maximum of no entries; the order in which the entries are met does not
  matter since the maximum is commutative and associative. Stated for any extents a and b.
-/
import Idealize.ShloMosaic.Lib.Pipeline.Value
import Idealize.ShloMosaic.Lib.ValueIdx
import Idealize.ShloMosaic.PureOps.Ideal.Laws
import proofs.«174252_j19688130085313_2_alg».proof.Proof.LibKeepdims

noncomputable section

namespace RowMax

open Idealize.ShloMosaic Idealize.ShloMosaic.ValueIdx

/-- The word of −∞ denotes the bottom of the extended reals. -/
theorem ofBits_neg_inf : Ideal.ofBits .f32 0xFF800000#32 = (⊥ : EReal) := by simp [Ideal.ofBits, Ideal.ieee]

/-- Reading the source along row p: lane k put back over p is the entry (p, k). -/
theorem comp_lift {a b : ℕ} (src : (⟨2, ![a, b]⟩ : Shape).Idx → EReal)
    (h : (⟨2, ![a, b]⟩ : Shape).Reduces [1] (⟨1, ![a]⟩ : Shape)) (p : Fin a) :
    (src ∘ h.lift (ix1 p)) = fun k : Fin b => src (ix2 p k) :=
  funext fun k => congrArg src (Keepdims.lift_lane h p k)

/-- A kernel's lane maximum from −∞, at row p. -/
theorem laneMax_apply {a b : ℕ} (src : FVec Ideal ⟨2, ![a, b]⟩ .f32)
    (h : (⟨2, ![a, b]⟩ : Shape).Reduces [1] (⟨1, ![a]⟩ : Shape)) (hφ : FKind.Formats .f32)
    (hacc : (0xFF800000#32 : BitVec 32) = 0xFF800000#32) (p : Fin a) :
    multiReduction (F := Ideal) .maximumf [1] ⟨1, ![a]⟩ src 0xFF800000#32 h hφ hacc (ix1 p)
      = (Finset.univ : Finset (Fin b)).fold max ⊥ (fun k => src (ix2 p k)) := by
  refine (Ideal.multiReduction_maximumf_single src 0xFF800000#32 h hφ hacc (ix1 p)).trans ?_
  rw [comp_lift src h p]
  show Finset.fold max (Ideal.ofBits .f32 0xFF800000#32) _ _ = _
  rw [ofBits_neg_inf]
  rfl

/-- The host's maximum-reduce along the rows from the scalar −∞, at row p. -/
theorem hostMax_apply {a b : ℕ} (src : FVec Ideal ⟨2, ![a, b]⟩ .f32)
    (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduce (FloatOps.maximumf (F := Ideal) (φ := .f32)) src (constant (F := Ideal) ⟨0, ![]⟩ .f32 0xFF800000#32) h' hu (ix1 p)
      = (Finset.univ : Finset (Fin b)).fold max ⊥ (fun k => src (ix2 p k)) := by
  rw [Host.reduce_eq_fold_single (FloatOps.maximumf (F := Ideal) (φ := .f32)) src _ h' h hu (ix1 p), comp_lift src h p]
  show Finset.fold max (Ideal.ofBits .f32 0xFF800000#32) _ _ = _
  rw [ofBits_neg_inf]
  rfl

end RowMax

end
-- ==== Proof.LibTransDot.lean ====
/-
  A matrix product with the right operand contracted on its last axis, read at an entry.

  For the dimension numbers of an `M×K` by `N×K` product (contract axis 1 of both operands, no batch axes), the
  contraction sum at the entry `(p, q)`, on the extended reals, is `∑ k, lhs (p, k) · rhs (q, k)`: a row of the
  left operand against a row of the right one. A printed record with these six lists is
  `DotDims.transposedRhs M K N` (the well-formedness field is a proposition), so it is rewritten to it by `rfl`.
-/
import Idealize.ShloMosaic.PureOps.Ideal.Laws
import Idealize.ShloMosaic.Lib.ValueIdx

noncomputable section

namespace Cert.TransDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.transposedRhs M K N).lhsIdx j ((contrEquiv1 (DotDims.transposedRhs M K N) K rfl rfl).symm k) = ix2 (j 0) k := by
  have hk := contrEquiv1_symm_val (DotDims.transposedRhs M K N) K rfl rfl k
  funext a
  apply Fin.ext
  match a with
  | ⟨0, _⟩ =>
    show ((DotDims.transposedRhs M K N).lhsIdx j _ 0).val = (j 0).val
    unfold DotDims.lhsIdx
    rw [dif_neg (show ¬(0 : Fin 2) ∈ (DotDims.transposedRhs M K N).lhsBatch from List.not_mem_nil),
      dif_pos (show (0 : Fin 2) ∈ (DotDims.transposedRhs M K N).lhsNonContracting from List.mem_singleton.mpr rfl)]
    rfl
  | ⟨1, _⟩ => exact ((DotDims.transposedRhs M K N).lhsIdx_val_of_single rfl j _).trans hk

/-- The right operand's index at result entry `j` and contraction position `k` is `(j 1, k)`. -/
theorem rhsIdx_eq (j : (⟨2, ![M, N]⟩ : Shape).Idx) (k : Fin K) :
    (DotDims.transposedRhs M K N).rhsIdx j ((contrEquiv1 (DotDims.transposedRhs M K N) K rfl rfl).symm k) = ix2 (j 1) k := by
  have hk := contrEquiv1_symm_val (DotDims.transposedRhs M K N) K rfl rfl k
  funext a
  apply Fin.ext
  match a with
  | ⟨0, _⟩ =>
    show ((DotDims.transposedRhs M K N).rhsIdx j _ 0).val = (j 1).val
    unfold DotDims.rhsIdx
    rw [dif_neg (show ¬(0 : Fin 2) ∈ (DotDims.transposedRhs M K N).rhsBatch from List.not_mem_nil),
      dif_pos (show (0 : Fin 2) ∈ (DotDims.transposedRhs M K N).rhsNonContracting from List.mem_singleton.mpr rfl)]
    rfl
  | ⟨1, _⟩ => exact ((DotDims.transposedRhs M K N).rhsIdx_val_of_single rfl j _).trans hk

/-- The contraction sum at `(p, q)` is the sum over `k` of `lhs (p, k) · rhs (q, k)`. -/
theorem contraction_eq (lhs : (⟨2, ![M, K]⟩ : Shape).Idx → EReal) (rhs : (⟨2, ![N, K]⟩ : Shape).Idx → EReal) (p : Fin M) (q : Fin N) :
    (∑ k : (DotDims.transposedRhs M K N).contr.Idx, lhs ((DotDims.transposedRhs M K N).lhsIdx (ix2 p q) k) * rhs ((DotDims.transposedRhs M K N).rhsIdx (ix2 p q) k))
      = ∑ k : Fin K, lhs (ix2 p k) * rhs (ix2 q k) := by
  rw [← Equiv.sum_comp (contrEquiv1 (DotDims.transposedRhs M K N) K rfl rfl).symm]
  refine Finset.sum_congr rfl fun k _ => ?_
  rw [lhsIdx_eq, rhsIdx_eq]
  rfl

end Cert.TransDot

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibRowSoftmax.lean ====
/-
  A row of softmax weights against a memory bank, in two arrangements, on the extended reals at real entries.

  Fix a query row `h`, a memory bank `K` (rows `K m`), scores `s m` and positive weights `t m = exp (s m)`.
    • arrangement W ("weighted"): `(h j · (1 / ∑ m, t m)) · ∑ m, t m · K m j` — normalise once, outside the sum;
    • arrangement S ("softRead"): `h j · ∑ m, (exp (s m - c) / ∑ m', exp (s m' - c)) · K m j` — the softmax with
      a shift `c` subtracted from every score (any real `c`; a row maximum in practice), each weight normalised.
  Over the reals the two agree: `exp (s - c) = exp s / exp c`, the factor `exp c` cancels in every quotient, and
  `1 / ∑ t` distributes over the finite sum. With `t m = 1 / exp (s m) = exp (-s m)` the same holds for the scores
  `-s`. On the extended reals this is stated at entries that are images of reals, where every operation is
  the image of the real one (the total of the weights is positive, so no quotient meets a zero divisor).

  Also: the running maximum of finitely many reals, started from a value below `⊤`, is a real as soon as there
  is at least one of them.
-/
import Idealize.ShloMosaic.PureOps.Ideal

noncomputable section

namespace RowSoftmax

open Finset Idealize.ShloMosaic

/-- The image in the extended reals of a finite sum of reals is the sum of the images. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two reals, the divisor not zero, computed on the extended reals. -/
theorem div_coe_coe (x y : ℝ) (hy : y ≠ 0) : Ideal.div (x : EReal) (y : EReal) = ((x / y : ℝ) : EReal) := by
  rw [Ideal.div_coe hy, ← EReal.coe_mul, mul_one_div]

variable {M H : Type*} [Fintype M] [Fintype H]

/-- Over the reals: normalising once outside the sum is the shifted softmax read against the bank. -/
theorem weighted_real [Nonempty M] (h c : ℝ) (t s k : M → ℝ) (ht : ∀ m, t m = Real.exp (s m)) :
    (h * (1 / ∑ m, t m)) * ∑ m, t m * k m
      = h * ∑ m, (Real.exp (s m - c) / ∑ m', Real.exp (s m' - c)) * k m := by
  have e1 : ∀ m, Real.exp (s m - c) = t m / Real.exp c := fun m => by rw [Real.exp_sub, ht]
  simp only [e1]
  rw [← Finset.sum_div]
  have e2 : ∀ m, t m / Real.exp c / ((∑ m', t m') / Real.exp c) = t m / ∑ m', t m' := fun m =>
    div_div_div_cancel_right₀ (Real.exp_ne_zero c) _ _
  simp only [e2]
  rw [mul_assoc, Finset.mul_sum]
  exact congrArg (h * ·) (Finset.sum_congr rfl fun m _ => by ring)

/-- Arrangement W on the extended reals: the weights `t` normalised once, outside the sum over the bank. -/
def weighted (h : H → EReal) (t : M → EReal) (K : M → H → EReal) : H → EReal :=
  fun j => (h j * Ideal.div 1 (∑ m, t m)) * ∑ m, t m * K m j

/-- Arrangement S on the extended reals: the softmax of the scores `s` shifted by `c`, read against the bank. -/
def softRead (h : H → EReal) (s : M → EReal) (c : EReal) (K : M → H → EReal) : H → EReal :=
  fun j => h j * ∑ m, Ideal.div (Ideal.exp (s m - c)) (∑ m', Ideal.exp (s m' - c)) * K m j

theorem sum_exp_ne_zero [Nonempty M] (s : M → ℝ) : (∑ m, Real.exp (s m)) ≠ 0 :=
  ne_of_gt (Finset.sum_pos (fun m _ => Real.exp_pos _) Finset.univ_nonempty)

/-- With weights `exp s`: arrangement W is arrangement S of the scores `s`, at real entries and any real shift. -/
theorem weighted_exp_eq_softRead [Nonempty M] (h : H → ℝ) (s : M → ℝ) (c : ℝ) (K : M → H → ℝ) :
    weighted (fun j => (h j : EReal)) (fun m => Ideal.exp (s m : EReal)) (fun m j => (K m j : EReal))
      = softRead (fun j => (h j : EReal)) (fun m => (s m : EReal)) (c : EReal) (fun m j => (K m j : EReal)) := by
  funext j
  unfold weighted softRead
  simp only [Ideal.exp_coe, ← EReal.coe_sub, ← coe_sum]
  rw [← EReal.coe_one, div_coe_coe _ _ (sum_exp_ne_zero s)]
  simp only [div_coe_coe _ _ (sum_exp_ne_zero fun m => s m - c), ← EReal.coe_mul, ← coe_sum]
  exact congrArg _ (weighted_real (h j) c (fun m => Real.exp (s m)) s (fun m => K m j) fun _ => rfl)

/-- With weights `1 / exp s`: arrangement W is arrangement S of the scores `-s`. -/
theorem weighted_inv_exp_eq_softRead [Nonempty M] (h : H → ℝ) (s : M → ℝ) (c : ℝ) (K : M → H → ℝ) :
    weighted (fun j => (h j : EReal)) (fun m => Ideal.div 1 (Ideal.exp (s m : EReal))) (fun m j => (K m j : EReal))
      = softRead (fun j => (h j : EReal)) (fun m => ((-(s m) : ℝ) : EReal)) (c : EReal) (fun m j => (K m j : EReal)) := by
  have e : ∀ m, Ideal.div 1 (Ideal.exp (s m : EReal)) = Ideal.exp ((-(s m) : ℝ) : EReal) := fun m => by
    rw [Ideal.exp_coe, Ideal.exp_coe, ← EReal.coe_one, div_coe_coe _ _ (Real.exp_ne_zero _), Real.exp_neg, one_div]
  simp only [e]
  exact weighted_exp_eq_softRead h (fun m => -(s m)) c K

/-- The running maximum of `n ≥ 1` reals from a start below `⊤`, joined once more with a value below `⊤`, is a real. -/
theorem max_fold_max_real {n : ℕ} (hn : 0 < n) (b b' : EReal) (hb : b ≠ ⊤) (hb' : b' ≠ ⊤) (f : Fin n → ℝ) :
    ∃ c : ℝ, max b' ((Finset.univ : Finset (Fin n)).fold max b fun k => (f k : EReal)) = (c : EReal) := by
  set v := max b' ((Finset.univ : Finset (Fin n)).fold max b fun k => (f k : EReal)) with hv
  have htop : v ≠ ⊤ := by
    apply ne_of_lt
    rw [hv, max_lt_iff, Finset.fold_max_lt]
    exact ⟨lt_top_iff_ne_top.mpr hb', lt_top_iff_ne_top.mpr hb, fun k _ => EReal.coe_lt_top _⟩
  have hbot : v ≠ ⊥ := by
    apply ne_of_gt
    rw [hv, lt_max_iff, Finset.lt_fold_max]
    exact Or.inr (Or.inr ⟨⟨0, hn⟩, Finset.mem_univ _, EReal.bot_lt_coe _⟩)
  exact ⟨v.toReal, (EReal.coe_toReal htop hbot).symm⟩

end RowSoftmax

end
-- ==== Proof.LibSoftmaxRecip.lean ====
/-
  Softmax weights normalised by a reciprocal, on the extended reals at real scores.

  For a row of scores s (n of them, n ≥ 1) put
    m    = max_k s_k            (the running maximum started from −∞),
    e_j  = exp (s_j − m),
    P_j  = e_j / Σ_k e_k        (the extended reals' own quotient).
  A program may instead form the reciprocal of the row total once and multiply: e_j · (1 / Σ_k e_k). On the
  extended reals the two differ when the total is 0 (0 · (1/0) = 0 · ⊤ = 0, but 0 / 0 is ⊥), which happens when
  every score is −∞. When every score is a real number, m is a real, every e_k is a positive real, so is their
  total, and both expressions are the image of the real quotient e_j / Σ_k e_k.
-/
import proofs.«174252_j19688130085313_2_alg».proof.Proof.LibRowSoftmax

noncomputable section

namespace SoftmaxRecip

open Finset Idealize.ShloMosaic

variable {n : ℕ}

/-- The shift of a row: its maximum, taken from −∞. -/
def shift (s : Fin n → EReal) : EReal := (Finset.univ : Finset (Fin n)).fold max ⊥ s

/-- The shifted exponential of entry j. -/
def num (s : Fin n → EReal) (j : Fin n) : EReal := Ideal.exp (s j - shift s)

/-- Entry j of the softmax of the row. -/
def prob (s : Fin n → EReal) (j : Fin n) : EReal := Ideal.div (num s j) (∑ k, num s k)

/-- The maximum of n ≥ 1 real scores is a real. -/
theorem shift_real (hn : 0 < n) (r : Fin n → ℝ) : ∃ μ : ℝ, shift (fun k => (r k : EReal)) = (μ : EReal) := by
  obtain ⟨c, hc⟩ := RowSoftmax.max_fold_max_real hn ⊥ ⊥ bot_ne_top bot_ne_top r
  exact ⟨c, by rw [← hc]; exact (max_bot_left _).symm⟩

/-- At real scores, the exponential times the reciprocal of the row total is the softmax entry. -/
theorem recip_eq_prob (hn : 0 < n) (s : Fin n → EReal) (hs : ∀ j, ∃ r : ℝ, s j = (r : EReal)) (j : Fin n) :
    num s j * Ideal.div 1 (∑ k, num s k) = prob s j := by
  choose r hr using hs
  obtain rfl : s = fun k => (r k : EReal) := funext hr
  obtain ⟨μ, hμ⟩ := shift_real hn r
  have hnum : ∀ k, num (fun k => (r k : EReal)) k = ((Real.exp (r k - μ) : ℝ) : EReal) := fun k => by
    unfold num; rw [hμ, ← EReal.coe_sub, Ideal.exp_coe]
  have hsum : (∑ k, num (fun k => (r k : EReal)) k) = ((∑ k, Real.exp (r k - μ) : ℝ) : EReal) := by
    rw [RowSoftmax.coe_sum]; exact Finset.sum_congr rfl fun k _ => hnum k
  haveI : Nonempty (Fin n) := ⟨⟨0, hn⟩⟩
  have hpos : (∑ k, Real.exp (r k - μ)) ≠ 0 := RowSoftmax.sum_exp_ne_zero fun k => r k - μ
  unfold prob
  rw [hsum, hnum, Ideal.div_coe hpos, Ideal.div_coe hpos, one_mul]

end SoftmaxRecip

end
-- ==== Proof.LibAttnTile.lean ====
/-
  One tile of masked attention as a kernel body forms it, read at an entry. Any extents a (query rows), n (keys),
  d (head width), e (value width); σ, fill and one are the words of the scale, of the value written where the mask
  is set, and of 1.0.

    scores   S(p, k) = mask(p, k) ≠ 0 ? fill : Σ_t (Q(p, t) · σ) · K(k, t)        (a product against K's rows)
    weights  W(p, j) = exp (S(p, j) − m_p) · (1 / Σ_k exp (S(p, k) − m_p)),   m_p = max_k S(p, k) from −∞,
             the row maximum and the row total kept as [a, 1] columns and spread back over [a, n]
    output   O(p, q) = Σ_k W(p, k) · V(k, q)

  The mask arrives as 32-bit words that are a widened bit, so "≠ 0" gives the bit back. Changes of float format
  are the identity on the extended reals, so the narrowing of the scaled queries and of the weights drops out.
  When row p of the scores is real (a real fill, a real scale, real queries and keys), W(p, ·) is the softmax of
  that row (the reciprocal of a positive real total times a real is the quotient).
-/
import Idealize.ShloMosaic.Lib.Pipeline.Value
import Idealize.ShloMosaic.Lib.ValueIdx
import Idealize.ShloMosaic.PureOps.Ideal.Laws
import proofs.«174252_j19688130085313_2_alg».proof.Proof.LibKeepdims
import proofs.«174252_j19688130085313_2_alg».proof.Proof.LibRowMax
import proofs.«174252_j19688130085313_2_alg».proof.Proof.LibTransDot
import proofs.«174252_j19688130085313_2_alg».proof.Proof.LibPlainDot
import proofs.«174252_j19688130085313_2_alg».proof.Proof.LibSoftmaxRecip

noncomputable section

namespace AttnTile

open Idealize.ShloMosaic Idealize.ShloMosaic.ValueIdx

/-- A bit widened to 32 bits differs from zero exactly when the bit is set: the comparison gives the bit back. -/
theorem ne_zero_of_widened (x : BitVec 1) : IntOp.cmpi .ne (x.setWidth 32) 0#32 = x := by
  rcases BitVec.eq_zero_or_eq_one x with rfl | rfl <;> rfl

variable {a n d e : ℕ}

/-- The tile of scores: the scaled queries against the rows of K, the fill value where the mask word is not zero. -/
def scoreTile (σ fill : BitVec 32) (Q : FVec Ideal ⟨2, ![a, d]⟩ .f32) (K : FVec Ideal ⟨2, ![n, d]⟩ .bf16)
    (Mk : IVec ⟨2, ![a, n]⟩ 32) (hlt : FTy.bits .bf16 < FTy.bits .f32) : FVec Ideal ⟨2, ![a, n]⟩ .f32 :=
  select (cmpi .ne Mk (constantI ⟨2, ![a, n]⟩ 32 0#32)) (broadcast ⟨2, ![a, n]⟩ (Scalar.ofBits (F := Ideal) .f32 fill))
    (matmul (DotDims.transposedRhs a d n) none
      (truncf .bf16 (mulf Q (broadcast ⟨2, ![a, d]⟩ (Scalar.ofBits (F := Ideal) .f32 σ))) hlt) K
      (constant ⟨2, ![a, n]⟩ .f32 0x00000000#32))

/-- Row p of the scores, as a function of the key. -/
def scoreRow (σ fill : BitVec 32) (Q : FVec Ideal ⟨2, ![a, d]⟩ .f32) (K : FVec Ideal ⟨2, ![n, d]⟩ .bf16)
    (Mk : IVec ⟨2, ![a, n]⟩ 32) (p : Fin a) : Fin n → EReal := fun k =>
  Scalar.select (IntOp.cmpi .ne (Mk (ix2 p k)) 0#32) (Ideal.ofBits .f32 fill)
    (∑ t : Fin d, (Q (ix2 p t) * Ideal.ofBits .f32 σ) * K (ix2 k t))

theorem scoreTile_apply (σ fill : BitVec 32) (Q : FVec Ideal ⟨2, ![a, d]⟩ .f32) (K : FVec Ideal ⟨2, ![n, d]⟩ .bf16)
    (Mk : IVec ⟨2, ![a, n]⟩ 32) (hlt : FTy.bits .bf16 < FTy.bits .f32) (p : Fin a) (k : Fin n) :
    scoreTile σ fill Q K Mk hlt (ix2 p k) = scoreRow σ fill Q K Mk p k := by
  show Scalar.select (IntOp.cmpi .ne (Mk (ix2 p k)) 0#32) (Ideal.ofBits .f32 fill)
      (FloatOps.matmul (DotDims.transposedRhs a d n) none
        (truncf .bf16 (mulf Q (broadcast ⟨2, ![a, d]⟩ (Scalar.ofBits (F := Ideal) .f32 σ))) hlt) K
        (constant ⟨2, ![a, n]⟩ .f32 0x00000000#32) (ix2 p k)) = _
  rw [Ideal.matmul_constant_zero_apply, Cert.TransDot.contraction_eq]
  rfl

/-- The tile of shifted exponentials: exp (S − row maximum), the maximum kept as a column and spread back. -/
def expTile (S : FVec Ideal ⟨2, ![a, n]⟩ .f32) (hr : (⟨2, ![a, n]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  exp (subf S (broadcastTo ⟨2, ![a, n]⟩
    (shapeCast ⟨2, ![a, 1]⟩ (multiReduction .maximumf [1] ⟨1, ![a]⟩ S 0xFF800000#32 hr hφ hm) hc) hb))

theorem expTile_apply (S : FVec Ideal ⟨2, ![a, n]⟩ .f32) (hr : (⟨2, ![a, n]⟩ : Shape).Reduces [1] (⟨1, ![a]⟩ : Shape))
    (hφ : FKind.Formats .f32) (hm : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (p : Fin a) (k : Fin n) :
    expTile S hr hφ hm hc hb (ix2 p k) = SoftmaxRecip.num (fun k => S (ix2 p k)) k := by
  show Ideal.exp (S (ix2 p k) - broadcastTo ⟨2, ![a, n]⟩
    (shapeCast ⟨2, ![a, 1]⟩ (multiReduction .maximumf [1] ⟨1, ![a]⟩ S 0xFF800000#32 hr hφ hm) hc) hb (ix2 p k)) = _
  rw [Keepdims.broadcastTo_a1_ab_apply, Keepdims.shapeCast_a_a1_apply, RowMax.laneMax_apply]
  rfl

/-- The tile of weights: each exponential times the reciprocal of its row total, the total kept as a column, the
    reciprocal taken on the column and spread back. -/
def weightTile (one : BitVec 32) (S : FVec Ideal ⟨2, ![a, n]⟩ .f32)
    (hr : (⟨2, ![a, n]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  mulf (expTile S hr hφ hm hc hb)
    (broadcastTo ⟨2, ![a, n]⟩
      (divf (broadcast ⟨2, ![a, 1]⟩ (Scalar.ofBits (F := Ideal) .f32 one))
        (shapeCast ⟨2, ![a, 1]⟩ (multiReduction .add [1] ⟨1, ![a]⟩ (expTile S hr hφ hm hc hb) 0x00000000#32 hr hφ hz) hc)) hb)

theorem weightTile_apply (one : BitVec 32) (S : FVec Ideal ⟨2, ![a, n]⟩ .f32)
    (hr : (⟨2, ![a, n]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (p : Fin a) (j : Fin n) :
    weightTile one S hr hφ hm hz hc hb (ix2 p j)
      = SoftmaxRecip.num (fun k => S (ix2 p k)) j
          * Ideal.div (Ideal.ofBits .f32 one) (∑ k : Fin n, SoftmaxRecip.num (fun k => S (ix2 p k)) k) := by
  show expTile S hr hφ hm hc hb (ix2 p j) * broadcastTo ⟨2, ![a, n]⟩
      (divf (broadcast ⟨2, ![a, 1]⟩ (Scalar.ofBits (F := Ideal) .f32 one))
        (shapeCast ⟨2, ![a, 1]⟩ (multiReduction .add [1] ⟨1, ![a]⟩ (expTile S hr hφ hm hc hb) 0x00000000#32 hr hφ hz) hc))
      hb (ix2 p j) = _
  rw [Keepdims.broadcastTo_a1_ab_apply, expTile_apply]
  show _ * Ideal.div (Ideal.ofBits .f32 one)
    (shapeCast ⟨2, ![a, 1]⟩ (multiReduction .add [1] ⟨1, ![a]⟩ (expTile S hr hφ hm hc hb) 0x00000000#32 hr hφ hz) hc
      (ix2 p (0 : Fin 1))) = _
  rw [Keepdims.shapeCast_a_a1_apply, Keepdims.laneSum_apply]
  exact congrArg (fun x => _ * Ideal.div _ x) (Finset.sum_congr rfl fun k _ => expTile_apply S hr hφ hm hc hb p k)

/-- At a row of real scores the weights are the row's softmax. -/
theorem weightTile_eq_prob (one : BitVec 32) (hone : Ideal.ofBits .f32 one = 1) (S : FVec Ideal ⟨2, ![a, n]⟩ .f32)
    (hr : (⟨2, ![a, n]⟩ : Shape).Reduces [1] (⟨1, ![a]⟩ : Shape))
    (hφ : FKind.Formats .f32) (hm : (0xFF800000#32 : BitVec 32) = 0xFF800000#32)
    (hz : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (hn : 0 < n) (p : Fin a) (hS : ∀ k : Fin n, ∃ r : ℝ, S (ix2 p k) = (r : EReal)) (j : Fin n) :
    weightTile one S hr hφ hm hz hc hb (ix2 p j) = SoftmaxRecip.prob (fun k => S (ix2 p k)) j := by
  rw [weightTile_apply, hone]
  exact SoftmaxRecip.recip_eq_prob hn _ hS j

/-- A row of scores is real when the fill, the scale, the row of queries and every key are. -/
theorem scoreRow_real (σ fill : BitVec 32) (hσ : ∃ r : ℝ, Ideal.ofBits .f32 σ = (r : EReal))
    (hfill : ∃ r : ℝ, Ideal.ofBits .f32 fill = (r : EReal))
    (Q : FVec Ideal ⟨2, ![a, d]⟩ .f32) (K : FVec Ideal ⟨2, ![n, d]⟩ .bf16) (Mk : IVec ⟨2, ![a, n]⟩ 32) (p : Fin a)
    (hQ : ∀ t : Fin d, ∃ r : ℝ, Q (ix2 p t) = (r : EReal))
    (hK : ∀ (k : Fin n) (t : Fin d), ∃ r : ℝ, K (ix2 k t) = (r : EReal)) (k : Fin n) :
    ∃ r : ℝ, scoreRow σ fill Q K Mk p k = (r : EReal) := by
  unfold scoreRow Scalar.select
  split
  · exact hfill
  · obtain ⟨s, hs⟩ := hσ
    choose q hq using hQ
    choose κ hκ using hK k
    refine ⟨∑ t : Fin d, (q t * s) * κ t, ?_⟩
    rw [RowSoftmax.coe_sum]
    exact Finset.sum_congr rfl fun t _ => by rw [hq t, hs, hκ t, EReal.coe_mul, EReal.coe_mul]

/-- The output tile: the weights, narrowed, against V. -/
def outTile (W : FVec Ideal ⟨2, ![a, n]⟩ .f32) (Vt : FVec Ideal ⟨2, ![n, e]⟩ .bf16)
    (hlt : FTy.bits .bf16 < FTy.bits .f32) : FVec Ideal ⟨2, ![a, e]⟩ .f32 :=
  matmul (DotDims.plain a n e) none (truncf .bf16 W hlt) Vt (constant ⟨2, ![a, e]⟩ .f32 0x00000000#32)

theorem outTile_apply (W : FVec Ideal ⟨2, ![a, n]⟩ .f32) (Vt : FVec Ideal ⟨2, ![n, e]⟩ .bf16)
    (hlt : FTy.bits .bf16 < FTy.bits .f32) (p : Fin a) (q : Fin e) :
    outTile W Vt hlt (ix2 p q) = ∑ k : Fin n, W (ix2 p k) * Vt (ix2 k q) := by
  show FloatOps.matmul (DotDims.plain a n e) none (truncf .bf16 W hlt) Vt (constant ⟨2, ![a, e]⟩ .f32 0x00000000#32) (ix2 p q) = _
  rw [Ideal.matmul_constant_zero_apply, Cert.PlainDot.contraction_eq]
  rfl

end AttnTile

end
-- ==== Proof.LibImageCast.lean ====
/-
  A [1, 1, a, b] block viewed as an [a, b] image reads, at (r, q), the block at (0, 0, r, q): both indices sit
  at row-major position r · b + q.  Stated for any extents a and b.
-/
import Idealize.ShloMosaic.Lib.Pipeline.Value
import Idealize.ShloMosaic.Lib.ValueIdx

namespace ImageCast

open Idealize.ShloMosaic Idealize.ShloMosaic.ValueIdx

variable {α : Type}

theorem shapeCast_11ab_ab_apply {a b : ℕ} (x : (⟨4, ![1, 1, a, b]⟩ : Shape).Idx → α)
    (h : (⟨4, ![1, 1, a, b]⟩ : Shape).ShapeCasts ⟨2, ![a, b]⟩) (r : Fin a) (q : Fin b) :
    shapeCast ⟨2, ![a, b]⟩ x h (ix2 r q) = x (ix4 (0 : Fin 1) (0 : Fin 1) r q) :=
  shapeCast_apply x h _ _ (by
    rw [Shape.rowMajor_val_four, Shape.rowMajor_val_two]
    show ((0 * 1 + 0) * a + r.val) * b + q.val = r.val * b + q.val
    simp only [Nat.zero_mul, Nat.zero_add])

end ImageCast
-- ==== Proof.AttnSpec.lean ====
/-
  What both programs compute, as functions of the argument arrays q, k, v : [2, 16, 2048, 64] (extended reals) and
  the mask : [2, 1, 2048, 2048] (bits), index by index.

  For head (b, h) and query row r the row of scores is, over the key j,
      s_j = mask(b, 0, r, j) ? fill : Σ_t (q(b, h, r, t) · 1/8) · k(b, h, j, t),
  with fill the float word 0xB089705F (about −1e-9: a masked score is replaced by a tiny value, not by −∞) and
  1/8 the word of 0.125. The weights are the softmax of that row,
      weights(b, h, r, j) = exp (s_j − max_k s_k) / Σ_k exp (s_k − max_k s_k),
  and the output is the weights against v,
      output(b, h, r, e) = Σ_j weights(b, h, r, j) · v(b, h, j, e).
-/
import Idealize.ShloMosaic.Lib.ValueIdx
import Idealize.ShloMosaic.PureOps.Ideal
import proofs.«174252_j19688130085313_2_alg».proof.Proof.LibSoftmaxRecip

noncomputable section

namespace Cert.AttnSpec

open Idealize.ShloMosaic Idealize.ShloMosaic.ValueIdx

/-- The shape of q, k, v and of the output. -/
abbrev SQ : Shape := ⟨4, ![2, 16, 2048, 64]⟩
/-- The shape of the mask. -/
abbrev SM : Shape := ⟨4, ![2, 1, 2048, 2048]⟩
/-- The shape of the weights. -/
abbrev SW : Shape := ⟨4, ![2, 16, 2048, 2048]⟩

/-- The row of masked, scaled scores of query row r of head (b, h), over the keys. -/
def scoreRow (q k : SQ.Idx → EReal) (mk : SM.Idx → BitVec 1) (b : Fin 2) (h : Fin 16) (r : Fin 2048) : Fin 2048 → EReal :=
  fun j => Scalar.select (mk (ix4 b (0 : Fin 1) r j)) (Ideal.ofBits .f32 0xB089705F#32)
    (∑ t : Fin 64, (q (ix4 b h r t) * Ideal.ofBits .f32 0x3E000000#32) * k (ix4 b h j t))

/-- The attention weights: the softmax of each row of scores. -/
def weights (q k : SQ.Idx → EReal) (mk : SM.Idx → BitVec 1) : SW.Idx → EReal :=
  fun i => SoftmaxRecip.prob (scoreRow q k mk (i 0) (i 1) (i 2)) (i 3)

/-- The attention output: the weights against v. -/
def output (q k v : SQ.Idx → EReal) (mk : SM.Idx → BitVec 1) : SQ.Idx → EReal :=
  fun i => ∑ j : Fin 2048, weights q k mk (ix4 (i 0) (i 1) (i 2) j) * v (ix4 (i 0) (i 1) j (i 3))

end Cert.AttnSpec

end
-- ==== Proof.AttnConsts.lean ====
/-
  The float words the two programs spell, as the extended reals they denote, and the one arithmetic fact that
  joins their scales: 1 / √64 = 1/8, the kernel's literal 0.125.
-/
import Idealize.ShloMosaic.PureOps.Ideal

noncomputable section

namespace Cert.AttnConsts

open Idealize.ShloMosaic

/-- The word of 1.0 denotes 1. -/
theorem ofBits_one : Ideal.ofBits .f32 0x3F800000#32 = 1 := by
  simp [Ideal.ofBits, Ideal.ieee, -EReal.coe_mul]; norm_num

/-- The word of 64.0 denotes 64. -/
theorem ofBits_sixtyfour : Ideal.ofBits .f32 0x42800000#32 = ((64 : ℝ) : EReal) := by
  simp [Ideal.ofBits, Ideal.ieee, -EReal.coe_mul]; norm_num

/-- The word of 0.125 denotes 1/8. -/
theorem ofBits_eighth : Ideal.ofBits .f32 0x3E000000#32 = ((1 / 8 : ℝ) : EReal) := by
  simp [Ideal.ofBits, Ideal.ieee, -EReal.coe_mul]; norm_num

/-- The fill value of a masked score (about -1e-9) is a real number: its exponent field is not all ones. -/
theorem fill_real : ∃ r : ℝ, Ideal.ofBits .f32 0xB089705F#32 = (r : EReal) := by
  refine ⟨(Ideal.ofBits .f32 0xB089705F#32).toReal, (EReal.coe_toReal ?_ ?_).symm⟩ <;>
    simp [Ideal.ofBits, Ideal.ieee, -EReal.coe_mul]

/-- √64 = 8 over the reals. -/
theorem sqrt_sixtyfour : Real.sqrt 64 = 8 := by
  rw [show (64 : ℝ) = 8 ^ 2 by norm_num, Real.sqrt_sq (by norm_num)]

/-- The reference's scale 1 / √64, computed on the extended reals, is the kernel's literal 1/8. -/
theorem scale_eq :
    Ideal.div (Ideal.ofBits .f32 0x3F800000#32) (Ideal.sqrt (Ideal.ofBits .f32 0x42800000#32))
      = Ideal.ofBits .f32 0x3E000000#32 := by
  rw [ofBits_one, ofBits_sixtyfour, ofBits_eighth, Ideal.sqrt_coe, if_neg (by norm_num), sqrt_sixtyfour,
    Ideal.div_coe (by norm_num : (8 : ℝ) ≠ 0), one_mul]

end Cert.AttnConsts

end
-- ==== Proof.KernelAttn.lean ====
/-
  The kernel body's two stored values, read at an entry, when its four loaded blocks are pieces of the argument
  arrays: the q block holds rows R(0..511) of head (b, h), the k and v blocks hold all 2048 rows of that head,
  the mask block holds rows R(0..511) of batch b as widened bits. Then, q and k being real,
    • the weights tile at (p, j) is the specification's weights at (b, h, R p, j);
    • the output tile at (p, e) is the specification's output at (b, h, R p, e).
  The body is the generic attention tile at the literal extents 512 × 2048 × 64, with the words 0.125, the fill
  0xB089705F and 1.0.
-/
import proofs.«174252_j19688130085313_2_alg».proof.Proof.Gen.KernelIdeal.Value
import proofs.«174252_j19688130085313_2_alg».proof.Proof.LibAttnTile
import proofs.«174252_j19688130085313_2_alg».proof.Proof.LibImageCast
import proofs.«174252_j19688130085313_2_alg».proof.Proof.AttnSpec
import proofs.«174252_j19688130085313_2_alg».proof.Proof.AttnConsts

noncomputable section

namespace Cert.KernelAttn

open Cert.KernelIdeal Cert.KernelIdeal.Gen Idealize.ShloMosaic Idealize.ShloMosaic.ValueIdx

/-- The weights payload is the generic weight tile of the score tile of the q, k and mask blocks viewed as images. -/
theorem pay3_eq (P0 : Vec Ideal S1x1x512x64 .f32) (P1 : Vec Ideal S1x1x2048x64 .bf16) (P2 : Vec Ideal S1x1x512x2048 .i32) :
    k0_pay3 (F := Ideal) P0 P1 P2
      = AttnTile.weightTile 0x3F800000#32
          (AttnTile.scoreTile 0x3E000000#32 0xB089705F#32 (shapeCast S512x64 P0 shapeCasts_S1x1x512x64_S512x64)
            (shapeCast S2048x64 P1 shapeCasts_S1x1x2048x64_S2048x64)
            (shapeCast S512x2048 P2 shapeCasts_S1x1x512x2048_S512x2048) bitsLt_bf16_f32)
          reduces_S512x2048_S512 (.inl rfl) rfl rfl shapeCasts_S512_S512x1 broadcasts_S512x1_S512x2048 := rfl

/-- The output payload is the weights tile against the v block viewed as an image. -/
theorem pay4_eq (P0 : Vec Ideal S1x1x512x64 .f32) (P1 P2 : Vec Ideal S1x1x2048x64 .bf16) (P3 : Vec Ideal S1x1x512x2048 .i32) :
    k0_pay4 (F := Ideal) P0 P1 P2 P3
      = AttnTile.outTile (k0_pay3 (F := Ideal) P0 P1 P3) (shapeCast S2048x64 P2 shapeCasts_S1x1x2048x64_S2048x64)
          bitsLt_bf16_f32 := rfl

variable (q k v : AttnSpec.SQ.Idx → EReal) (mk : AttnSpec.SM.Idx → BitVec 1)
  (hq : ∀ i, ∃ r : ℝ, q i = (r : EReal)) (hk : ∀ i, ∃ r : ℝ, k i = (r : EReal))
  (P0 : Vec Ideal S1x1x512x64 .f32) (P1 P2 : Vec Ideal S1x1x2048x64 .bf16) (P3 : Vec Ideal S1x1x512x2048 .i32)
  (b : Fin 2) (h : Fin 16) (R : Fin 512 → Fin 2048)
  (h0 : ∀ (p : Fin 512) (t : Fin 64), P0 (ix4 (0 : Fin 1) (0 : Fin 1) p t) = q (ix4 b h (R p) t))
  (h1 : ∀ (j : Fin 2048) (t : Fin 64), P1 (ix4 (0 : Fin 1) (0 : Fin 1) j t) = k (ix4 b h j t))
  (h2 : ∀ (j : Fin 2048) (e : Fin 64), P2 (ix4 (0 : Fin 1) (0 : Fin 1) j e) = v (ix4 b h j e))
  (h3 : ∀ (p : Fin 512) (j : Fin 2048),
    P3 (ix4 (0 : Fin 1) (0 : Fin 1) p j) = (mk (ix4 b (0 : Fin 1) (R p) j)).setWidth 32)

include hq hk h0 h1 h3 in
/-- The weights tile at (p, j) is the specification's weights at (b, h, R p, j). -/
theorem weights_block (p : Fin 512) (j : Fin 2048) :
    k0_pay3 (F := Ideal) P0 P1 P3 (ix2 p j) = AttnSpec.weights q k mk (ix4 b h (R p) j) := by
  have hrow : ∀ j' : Fin 2048,
      AttnTile.scoreTile 0x3E000000#32 0xB089705F#32 (shapeCast S512x64 P0 shapeCasts_S1x1x512x64_S512x64)
        (shapeCast S2048x64 P1 shapeCasts_S1x1x2048x64_S2048x64)
        (shapeCast S512x2048 P3 shapeCasts_S1x1x512x2048_S512x2048) bitsLt_bf16_f32 (ix2 p j')
      = AttnSpec.scoreRow q k mk b h (R p) j' := fun j' => by
    rw [AttnTile.scoreTile_apply]
    unfold AttnTile.scoreRow AttnSpec.scoreRow
    rw [ImageCast.shapeCast_11ab_ab_apply, h3, AttnTile.ne_zero_of_widened]
    refine congrArg (Scalar.select _ _) (Finset.sum_congr rfl fun t _ => ?_)
    rw [ImageCast.shapeCast_11ab_ab_apply, ImageCast.shapeCast_11ab_ab_apply, h0, h1]
  rw [pay3_eq, AttnTile.weightTile_eq_prob _ AttnConsts.ofBits_one _ _ _ _ _ _ _ (by decide) p ?_ j]
  · exact congrArg (fun f => SoftmaxRecip.prob f j) (funext hrow)
  · intro k'
    rw [AttnTile.scoreTile_apply]
    refine AttnTile.scoreRow_real _ _ ⟨_, AttnConsts.ofBits_eighth⟩ AttnConsts.fill_real _ _ _ p (fun t => ?_) (fun j' t => ?_) k'
    · rw [ImageCast.shapeCast_11ab_ab_apply, h0]; exact hq _
    · rw [ImageCast.shapeCast_11ab_ab_apply, h1]; exact hk _

include hq hk h0 h1 h2 h3 in
/-- The output tile at (p, e) is the specification's output at (b, h, R p, e). -/
theorem output_block (p : Fin 512) (e : Fin 64) :
    k0_pay4 (F := Ideal) P0 P1 P2 P3 (ix2 p e) = AttnSpec.output q k v mk (ix4 b h (R p) e) := by
  rw [pay4_eq, AttnTile.outTile_apply]
  unfold AttnSpec.output
  refine Finset.sum_congr rfl fun j _ => ?_
  rw [weights_block q k mk hq hk P0 P1 P3 b h R h0 h1 h3 p j, ImageCast.shapeCast_11ab_ab_apply, h2]

end Cert.KernelAttn

end
-- ==== Proof.LibBlockCast.lean ====
/-
  An [a, b] image viewed as a [1, 1, a, b] block reads, at y, the image at (y 2, y 3): the two leading coordinates
  of y can only be 0, so both indices sit at row-major position y 2 · b + y 3. Stated for any extents a and b.
-/
import Idealize.ShloMosaic.Lib.Pipeline.Value
import Idealize.ShloMosaic.Lib.ValueIdx

namespace BlockCast

open Idealize.ShloMosaic Idealize.ShloMosaic.ValueIdx

variable {α : Type}

theorem shapeCast_ab_11ab_apply {a b : ℕ} (x : (⟨2, ![a, b]⟩ : Shape).Idx → α)
    (h : (⟨2, ![a, b]⟩ : Shape).ShapeCasts ⟨4, ![1, 1, a, b]⟩) (y : (⟨4, ![1, 1, a, b]⟩ : Shape).Idx) :
    shapeCast ⟨4, ![1, 1, a, b]⟩ x h y = x (ix2 (y 2) (y 3)) :=
  shapeCast_apply x h _ _ (by
    rw [Shape.rowMajor_val_two, Shape.rowMajor_val_four]
    show (y 2).val * b + (y 3).val = (((y 0).val * 1 + (y 1).val) * a + (y 2).val) * b + (y 3).val
    have h0 : (y 0).val < 1 := (y 0).isLt
    have h1 : (y 1).val < 1 := (y 1).isLt
    have e0 : (y 0).val = 0 := by omega
    have e1 : (y 1).val = 0 := by omega
    rw [e0, e1]
    simp only [Nat.zero_mul, Nat.zero_add])

end BlockCast
-- ==== Proof.KernelBlocks.lean ====
/-
  From the grid's blocks to the two result arrays.

  Grid point (b, i, h) — batch, query tile, head — stages rows 512·i … 512·i + 511 of q's head (b, h), all of k's and
  v's head (b, h) (narrowed by the host before the launch, which changes nothing on the extended reals) and rows
  512·i … of the mask of batch b (widened to 32-bit words by the host), and writes back block (b, h, i, 0) of the
  output and of the weights. The 2 · 16 · 4 output blocks are distinct and tile each result array, so each array
  ends holding the specification's function: what each point writes is the specification restricted to its block
  (the tile lemmas of the body at the staged blocks), and every index lies in the block of the point
  (its batch, its row / 512, its head).
-/
import proofs.«174252_j19688130085313_2_alg».proof.Proof.Gen.KernelIdeal.Value
import proofs.«174252_j19688130085313_2_alg».proof.Proof.KernelAttn
import proofs.«174252_j19688130085313_2_alg».proof.Proof.LibBlockCast
import Idealize.ShloMosaic.Lib.Pipeline.Value
import Idealize.ShloMosaic.Lib.StableHlo.Run

noncomputable section

namespace Cert.KernelIdeal.Blocks

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0, 0, 0] : Fin 4 → Nat) = fun _ => 0 := funext fun a => by fin_cases a <;> rfl

/-- The argument arrays of core c. -/
abbrev qArr (c : Dev nD) : AttnSpec.SQ.Idx → EReal := m ((c : Thread nD τ).loc main_arg0)
abbrev kArr (c : Dev nD) : AttnSpec.SQ.Idx → EReal := m ((c : Thread nD τ).loc main_arg1)
abbrev vArr (c : Dev nD) : AttnSpec.SQ.Idx → EReal := m ((c : Thread nD τ).loc main_arg2)
abbrev mArr (c : Dev nD) : AttnSpec.SM.Idx → BitVec 1 := m ((c : Thread nD τ).loc main_arg3)

/-! ## The arrays the region finds -/

/-- The narrowed copy of k is k. -/
theorem V_k (c : Dev nD) : (V m c main_v0 : S2x16x2048x64.Idx → EReal) = kArr m c := by
  dsimp only [Gen.V, Gen.hostOps0]; after_results; rfl

/-- The narrowed copy of v is v. -/
theorem V_v (c : Dev nD) : (V m c main_v1 : S2x16x2048x64.Idx → EReal) = vArr m c := by
  dsimp only [Gen.V, Gen.hostOps0]; after_results; rfl

/-- The widened mask holds each bit as a 32-bit word. -/
theorem V_mask (c : Dev nD) : (V m c main_v2 : S2x1x2048x2048.Idx → BitVec 32) = fun i => (mArr m c i).setWidth 32 := by
  dsimp only [Gen.V, Gen.hostOps0]; after_results; rfl

/-! ## The index maps, decided over the 128 grid points -/

theorem idx_facts : ∀ t : Fin cfg0.N,
    (win0_0.index t (0 : Fin 4) = win0_5.index t (0 : Fin 4) ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
      ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
      ∧ win0_2.index t (2 : Fin 4) = 0 ∧ win0_2.index t (3 : Fin 4) = 0)
    ∧ (win0_3.index t (0 : Fin 4) = win0_5.index t (0 : Fin 4) ∧ win0_3.index t (1 : Fin 4) = 0
      ∧ win0_3.index t (2 : Fin 4) = win0_5.index t (2 : Fin 4) ∧ win0_3.index t (3 : Fin 4) = 0)
    ∧ (win0_4.index t (0 : Fin 4) = win0_5.index t (0 : Fin 4) ∧ win0_4.index t (1 : Fin 4) = win0_5.index t (1 : Fin 4)
      ∧ win0_4.index t (2 : Fin 4) = win0_5.index t (2 : Fin 4) ∧ win0_4.index t (3 : Fin 4) = 0)
    ∧ (win0_5.index t (0 : Fin 4) < 2 ∧ win0_5.index t (1 : Fin 4) < 16 ∧ win0_5.index t (2 : Fin 4) < 4
      ∧ win0_5.index t (3 : Fin 4) = 0) :=
  (by decide +kernel : ∀ t : Fin grid0.N, _)

/-- Every block (batch, head, query tile) of the results is some point's. -/
theorem idx_onto : ∀ (q0 : Fin 2) (q1 : Fin 16) (q2 : Fin 4), ∃ t : Fin cfg0.N, win0_5.index t = ![q0.val, q1.val, q2.val, 0] :=
  (by decide +kernel : ∀ (q0 : Fin 2) (q1 : Fin 16) (q2 : Fin 4), ∃ t : Fin grid0.N, win0_5.index t = ![q0.val, q1.val, q2.val, 0])

/-! ## The staged blocks as pieces of the argument arrays -/

/-- The q block of point t at x is q at the index whose coordinates are the block's offsets plus x's. -/
theorem qblk_apply (c : Dev nD) (t : Fin cfg0.N) (x : S1x1x512x64.Idx) (i : S2x16x2048x64.Idx)
    (h0 : (i 0).val = win0_0.index t (0 : Fin 4) * 1 + (x 0).val) (h1 : (i 1).val = win0_0.index t (1 : Fin 4) * 1 + (x 1).val)
    (h2 : (i 2).val = win0_0.index t (2 : Fin 4) * 512 + (x 2).val) (h3 : (i 3).val = win0_0.index t (3 : Fin 4) * 64 + (x 3).val) :
    (iblk m c 0 t : Vec Ideal S1x1x512x64 .f32) x = qArr m c i := by
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 4) * 1 + 1 * (x 0).val = (i 0).val; omega
  | ⟨1, _⟩ => show win0_0.index t (1 : Fin 4) * 1 + 1 * (x 1).val = (i 1).val; omega
  | ⟨2, _⟩ => show win0_0.index t (2 : Fin 4) * 512 + 1 * (x 2).val = (i 2).val; omega
  | ⟨3, _⟩ => show win0_0.index t (3 : Fin 4) * 64 + 1 * (x 3).val = (i 3).val; omega

/-- The k block of point t. -/
theorem kblk_apply (c : Dev nD) (t : Fin cfg0.N) (x : S1x1x2048x64.Idx) (i : S2x16x2048x64.Idx)
    (h0 : (i 0).val = win0_1.index t (0 : Fin 4) * 1 + (x 0).val) (h1 : (i 1).val = win0_1.index t (1 : Fin 4) * 1 + (x 1).val)
    (h2 : (i 2).val = win0_1.index t (2 : Fin 4) * 2048 + (x 2).val) (h3 : (i 3).val = win0_1.index t (3 : Fin 4) * 64 + (x 3).val) :
    (iblk m c 1 t : Vec Ideal S1x1x2048x64 .bf16) x = kArr m c i := by
  unfold iblk
  rw [View.read_apply]
  show (V m c main_v0 : S2x16x2048x64.Idx → EReal) _ = _
  rw [V_k]
  refine congrArg (kArr m c) (funext fun a => Fin.ext ?_)
  match a with
  | ⟨0, _⟩ => show win0_1.index t (0 : Fin 4) * 1 + 1 * (x 0).val = (i 0).val; omega
  | ⟨1, _⟩ => show win0_1.index t (1 : Fin 4) * 1 + 1 * (x 1).val = (i 1).val; omega
  | ⟨2, _⟩ => show win0_1.index t (2 : Fin 4) * 2048 + 1 * (x 2).val = (i 2).val; omega
  | ⟨3, _⟩ => show win0_1.index t (3 : Fin 4) * 64 + 1 * (x 3).val = (i 3).val; omega

/-- The v block of point t. -/
theorem vblk_apply (c : Dev nD) (t : Fin cfg0.N) (x : S1x1x2048x64.Idx) (i : S2x16x2048x64.Idx)
    (h0 : (i 0).val = win0_2.index t (0 : Fin 4) * 1 + (x 0).val) (h1 : (i 1).val = win0_2.index t (1 : Fin 4) * 1 + (x 1).val)
    (h2 : (i 2).val = win0_2.index t (2 : Fin 4) * 2048 + (x 2).val) (h3 : (i 3).val = win0_2.index t (3 : Fin 4) * 64 + (x 3).val) :
    (iblk m c 2 t : Vec Ideal S1x1x2048x64 .bf16) x = vArr m c i := by
  unfold iblk
  rw [View.read_apply]
  show (V m c main_v1 : S2x16x2048x64.Idx → EReal) _ = _
  rw [V_v]
  refine congrArg (vArr m c) (funext fun a => Fin.ext ?_)
  match a with
  | ⟨0, _⟩ => show win0_2.index t (0 : Fin 4) * 1 + 1 * (x 0).val = (i 0).val; omega
  | ⟨1, _⟩ => show win0_2.index t (1 : Fin 4) * 1 + 1 * (x 1).val = (i 1).val; omega
  | ⟨2, _⟩ => show win0_2.index t (2 : Fin 4) * 2048 + 1 * (x 2).val = (i 2).val; omega
  | ⟨3, _⟩ => show win0_2.index t (3 : Fin 4) * 64 + 1 * (x 3).val = (i 3).val; omega

/-- The mask block of point t: the mask's bits as 32-bit words. -/
theorem mblk_apply (c : Dev nD) (t : Fin cfg0.N) (x : S1x1x512x2048.Idx) (i : S2x1x2048x2048.Idx)
    (h0 : (i 0).val = win0_3.index t (0 : Fin 4) * 1 + (x 0).val) (h1 : (i 1).val = win0_3.index t (1 : Fin 4) * 1 + (x 1).val)
    (h2 : (i 2).val = win0_3.index t (2 : Fin 4) * 512 + (x 2).val) (h3 : (i 3).val = win0_3.index t (3 : Fin 4) * 2048 + (x 3).val) :
    (iblk m c 3 t : Vec Ideal S1x1x512x2048 .i32) x = (mArr m c i).setWidth 32 := by
  unfold iblk
  rw [View.read_apply]
  show (V m c main_v2 : S2x1x2048x2048.Idx → BitVec 32) _ = _
  rw [V_mask]
  refine congrArg (fun j => (mArr m c j).setWidth 32) (funext fun a => Fin.ext ?_)
  match a with
  | ⟨0, _⟩ => show win0_3.index t (0 : Fin 4) * 1 + 1 * (x 0).val = (i 0).val; omega
  | ⟨1, _⟩ => show win0_3.index t (1 : Fin 4) * 1 + 1 * (x 1).val = (i 1).val; omega
  | ⟨2, _⟩ => show win0_3.index t (2 : Fin 4) * 512 + 1 * (x 2).val = (i 2).val; omega
  | ⟨3, _⟩ => show win0_3.index t (3 : Fin 4) * 2048 + 1 * (x 3).val = (i 3).val; omega

/-! ## The head and rows a point works on -/

/-- The batch of point t's blocks. -/
def bOf (t : Fin cfg0.N) : Fin 2 := ⟨win0_5.index t (0 : Fin 4), (idx_facts t).2.2.2.2.2.1⟩
/-- The head of point t's blocks. -/
def hOf (t : Fin cfg0.N) : Fin 16 := ⟨win0_5.index t (1 : Fin 4), (idx_facts t).2.2.2.2.2.2.1⟩
/-- The query row that row p of point t's tile is. -/
def rowOf (t : Fin cfg0.N) (p : Fin 512) : Fin 2048 :=
  ⟨win0_5.index t (2 : Fin 4) * 512 + p.val, by have := (idx_facts t).2.2.2.2.2.2.2.1; have := p.isLt; omega⟩

variable (c : Dev nD)

theorem q_at (t : Fin cfg0.N) (p : Fin 512) (u : Fin 64) :
    (iblk m c 0 t : Vec Ideal S1x1x512x64 .f32) (ix4 (0 : Fin 1) (0 : Fin 1) p u)
      = qArr m c (ix4 (bOf t) (hOf t) (rowOf t p) u) := by
  obtain ⟨⟨e0, e1, e2, e3⟩, -⟩ := idx_facts t
  refine qblk_apply m c t _ _ ?_ ?_ ?_ ?_
  · show win0_5.index t (0 : Fin 4) = win0_0.index t (0 : Fin 4) * 1 + 0; omega
  · show win0_5.index t (1 : Fin 4) = win0_0.index t (1 : Fin 4) * 1 + 0; omega
  · show win0_5.index t (2 : Fin 4) * 512 + p.val = win0_0.index t (2 : Fin 4) * 512 + p.val; omega
  · show u.val = win0_0.index t (3 : Fin 4) * 64 + u.val; omega

theorem k_at (t : Fin cfg0.N) (j : Fin 2048) (u : Fin 64) :
    (iblk m c 1 t : Vec Ideal S1x1x2048x64 .bf16) (ix4 (0 : Fin 1) (0 : Fin 1) j u)
      = kArr m c (ix4 (bOf t) (hOf t) j u) := by
  obtain ⟨-, ⟨e0, e1, e2, e3⟩, -⟩ := idx_facts t
  refine kblk_apply m c t _ _ ?_ ?_ ?_ ?_
  · show win0_5.index t (0 : Fin 4) = win0_1.index t (0 : Fin 4) * 1 + 0; omega
  · show win0_5.index t (1 : Fin 4) = win0_1.index t (1 : Fin 4) * 1 + 0; omega
  · show j.val = win0_1.index t (2 : Fin 4) * 2048 + j.val; omega
  · show u.val = win0_1.index t (3 : Fin 4) * 64 + u.val; omega

theorem v_at (t : Fin cfg0.N) (j : Fin 2048) (u : Fin 64) :
    (iblk m c 2 t : Vec Ideal S1x1x2048x64 .bf16) (ix4 (0 : Fin 1) (0 : Fin 1) j u)
      = vArr m c (ix4 (bOf t) (hOf t) j u) := by
  obtain ⟨-, -, ⟨e0, e1, e2, e3⟩, -⟩ := idx_facts t
  refine vblk_apply m c t _ _ ?_ ?_ ?_ ?_
  · show win0_5.index t (0 : Fin 4) = win0_2.index t (0 : Fin 4) * 1 + 0; omega
  · show win0_5.index t (1 : Fin 4) = win0_2.index t (1 : Fin 4) * 1 + 0; omega
  · show j.val = win0_2.index t (2 : Fin 4) * 2048 + j.val; omega
  · show u.val = win0_2.index t (3 : Fin 4) * 64 + u.val; omega

theorem mask_at (t : Fin cfg0.N) (p : Fin 512) (j : Fin 2048) :
    (iblk m c 3 t : Vec Ideal S1x1x512x2048 .i32) (ix4 (0 : Fin 1) (0 : Fin 1) p j)
      = (mArr m c (ix4 (bOf t) (0 : Fin 1) (rowOf t p) j)).setWidth 32 := by
  obtain ⟨-, -, -, ⟨e0, e1, e2, e3⟩, -⟩ := idx_facts t
  refine mblk_apply m c t _ _ ?_ ?_ ?_ ?_
  · show win0_5.index t (0 : Fin 4) = win0_3.index t (0 : Fin 4) * 1 + 0; omega
  · show 0 = win0_3.index t (1 : Fin 4) * 1 + 0; omega
  · show win0_5.index t (2 : Fin 4) * 512 + p.val = win0_3.index t (2 : Fin 4) * 512 + p.val; omega
  · show j.val = win0_3.index t (3 : Fin 4) * 2048 + j.val; omega

/-! ## What a point writes back -/

variable (hq : ∀ i, ∃ r : ℝ, qArr m c i = (r : EReal)) (hk : ∀ i, ∃ r : ℝ, kArr m c i = (r : EReal))

include hq hk in
/-- Point t writes back block t of the specification's weights. -/
theorem flushed5_eq (t : Fin cfg0.N) :
    (dats m 0 c).flushed 5 t
      = ((cfg0.win 5).blk t).view.read (Elt Ideal) (AttnSpec.weights (qArr m c) (kArr m c) (mArr m c)) := by
  obtain ⟨-, -, -, -, -, -, -, -, e53⟩ := idx_facts t
  rw [Value.flushed5]
  unfold out0_5
  rw [View.canon_unit_zero hz]
  simp only [View.ld_unit_zero (S := S1x1x512x64) hz, View.ld_unit_zero (S := S1x1x2048x64) hz,
    View.ld_unit_zero (S := S1x1x512x2048) hz]
  funext y
  show k0_pay2 (k0_pay3 (iblk m c 0 t) (iblk m c 1 t) (iblk m c 3 t)) y
    = AttnSpec.weights (qArr m c) (kArr m c) (mArr m c) (((cfg0.win 5).blk t).view.emb y)
  have hy0 : (y 0).val < 1 := (y 0).isLt
  have hy1 : (y 1).val < 1 := (y 1).isLt
  refine (BlockCast.shapeCast_ab_11ab_apply (k0_pay3 (iblk m c 0 t) (iblk m c 1 t) (iblk m c 3 t))
    shapeCasts_S512x2048_S1x1x512x2048 y).trans ?_
  refine (KernelAttn.weights_block (qArr m c) (kArr m c) (mArr m c) hq hk (iblk m c 0 t) (iblk m c 1 t) (iblk m c 3 t)
    (bOf t) (hOf t) (rowOf t) (q_at m c t) (k_at m c t) (mask_at m c t) (y 2) (y 3)).trans ?_
  refine congrArg (AttnSpec.weights (qArr m c) (kArr m c) (mArr m c)) (funext fun a => Fin.ext ?_)
  match a with
  | ⟨0, _⟩ => show win0_5.index t (0 : Fin 4) = win0_5.index t (0 : Fin 4) * 1 + 1 * (y 0).val; omega
  | ⟨1, _⟩ => show win0_5.index t (1 : Fin 4) = win0_5.index t (1 : Fin 4) * 1 + 1 * (y 1).val; omega
  | ⟨2, _⟩ => show win0_5.index t (2 : Fin 4) * 512 + (y 2).val = win0_5.index t (2 : Fin 4) * 512 + 1 * (y 2).val; omega
  | ⟨3, _⟩ => show (y 3).val = win0_5.index t (3 : Fin 4) * 2048 + 1 * (y 3).val; omega

include hq hk in
/-- Point t writes back block t of the specification's output. -/
theorem flushed4_eq (t : Fin cfg0.N) :
    (dats m 0 c).flushed 4 t
      = ((cfg0.win 4).blk t).view.read (Elt Ideal) (AttnSpec.output (qArr m c) (kArr m c) (vArr m c) (mArr m c)) := by
  obtain ⟨-, -, -, -, ⟨e40, e41, e42, e43⟩, -⟩ := idx_facts t
  rw [Value.flushed4]
  unfold out0_4
  rw [View.canon_unit_zero hz]
  simp only [View.ld_unit_zero (S := S1x1x512x64) hz, View.ld_unit_zero (S := S1x1x2048x64) hz,
    View.ld_unit_zero (S := S1x1x512x2048) hz]
  funext y
  show k0_pay1 (k0_pay4 (iblk m c 0 t) (iblk m c 1 t) (iblk m c 2 t) (iblk m c 3 t)) y
    = AttnSpec.output (qArr m c) (kArr m c) (vArr m c) (mArr m c) (((cfg0.win 4).blk t).view.emb y)
  have hy0 : (y 0).val < 1 := (y 0).isLt
  have hy1 : (y 1).val < 1 := (y 1).isLt
  refine (BlockCast.shapeCast_ab_11ab_apply (k0_pay4 (iblk m c 0 t) (iblk m c 1 t) (iblk m c 2 t) (iblk m c 3 t))
    shapeCasts_S512x64_S1x1x512x64 y).trans ?_
  refine (KernelAttn.output_block (qArr m c) (kArr m c) (vArr m c) (mArr m c) hq hk (iblk m c 0 t) (iblk m c 1 t)
    (iblk m c 2 t) (iblk m c 3 t) (bOf t) (hOf t) (rowOf t) (q_at m c t) (k_at m c t) (v_at m c t) (mask_at m c t)
    (y 2) (y 3)).trans ?_
  refine congrArg (AttnSpec.output (qArr m c) (kArr m c) (vArr m c) (mArr m c)) (funext fun a => Fin.ext ?_)
  match a with
  | ⟨0, _⟩ => show win0_5.index t (0 : Fin 4) = win0_4.index t (0 : Fin 4) * 1 + 1 * (y 0).val; omega
  | ⟨1, _⟩ => show win0_5.index t (1 : Fin 4) = win0_4.index t (1 : Fin 4) * 1 + 1 * (y 1).val; omega
  | ⟨2, _⟩ => show win0_5.index t (2 : Fin 4) * 512 + (y 2).val = win0_4.index t (2 : Fin 4) * 512 + 1 * (y 2).val; omega
  | ⟨3, _⟩ => show (y 3).val = win0_4.index t (3 : Fin 4) * 64 + 1 * (y 3).val; omega

/-! ## The blocks cover the arrays -/

/-- An index of the weights is in point t's block iff each coordinate is in the block's range on its axis. -/
theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v3_1).slice (win0_5.rect t)).set ↔ _
  rw [View.set_slice_whole, Rect.mem_set_unit]
  exact Iff.rfl

/-- An index of the output is in point t's block iff each coordinate is in the block's range on its axis. -/
theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v3_0).slice (win0_4.rect t)).set ↔ _
  rw [View.set_slice_whole, Rect.mem_set_unit]
  exact Iff.rfl

/-- Every index of the weights lies in the block of the point (its batch, its row / 512, its head). -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output lies in the block of the point (its batch, its row / 512, its head). -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 512, by omega⟩
  obtain ⟨-, -, -, -, ⟨e40, e41, e42, e43⟩, -⟩ := idx_facts t
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The result arrays after the run -/

include hq hk in
/-- The weights array ends holding the specification's weights. -/
theorem final5 : (dats m 0 c).arrAt 5 cfg0.N = AttnSpec.weights (qArr m c) (kArr m c) (mArr m c) :=
  (dats m 0 c).arrAt_eq_of_cover 5 (AttnSpec.weights (qArr m c) (kArr m c) (mArr m c))
    (fun t _ => flushed5_eq m c hq hk t) cover5

include hq hk in
/-- The output array ends holding the specification's output. -/
theorem final4 : (dats m 0 c).arrAt 4 cfg0.N = AttnSpec.output (qArr m c) (kArr m c) (vArr m c) (mArr m c) :=
  (dats m 0 c).arrAt_eq_of_cover 4 (AttnSpec.output (qArr m c) (kArr m c) (vArr m c) (mArr m c))
    (fun t _ => flushed4_eq m c hq hk t) cover4

/-- The run, read: when q and k hold real numbers on every core, the two results end at the specification's output
    and weights of the argument arrays, and the arguments are unchanged. -/
theorem run (hreal : ∀ c : Dev nD, (∀ i, ∃ r : ℝ, qArr m c i = (r : EReal)) ∧ (∀ i, ∃ r : ℝ, kArr m c i = (r : EReal))) :
    θ_run defs (onTc (τ := τ) (main (F := Ideal))) ⟨m, fun _ => 0, ρ⟩ fun r => ∀ c : Dev nD,
      r.2.mem ((c : Thread nD τ).loc main_v3_0) = AttnSpec.output (qArr m c) (kArr m c) (vArr m c) (mArr m c)
      ∧ r.2.mem ((c : Thread nD τ).loc main_v3_1) = AttnSpec.weights (qArr m c) (kArr m c) (mArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c (hreal c).1 (hreal c).2),
      (h c).2.1.trans (final5 m c (hreal c).1 (hreal c).2), (h c).2.2⟩)
    (Value.run_blocks m ρ)

end Cert.KernelIdeal.Blocks

end
-- ==== Proof.LibLastAxisMax4.lean ====
/-
  The maximum along the last axis of an [a, b, c, d] array, started from −∞, as the host takes it, read at an entry.

  The host's one-operand maximum-reduce over axis 3 with the scalar constant −∞ as its initial value is, on the
  extended reals at (p, q, r), the maximum over k of the entries (p, q, r, k), with −∞ (the bottom element) the
  maximum of no entries: the maximum is commutative and associative, so the order in which the entries are met does
  not matter. Stated for any extents.
-/
import Idealize.ShloMosaic.Lib.Pipeline.Value
import Idealize.ShloMosaic.Lib.ValueIdx
import Idealize.ShloMosaic.PureOps.Ideal.Laws
import proofs.«174252_j19688130085313_2_alg».proof.Proof.LibRowMax

noncomputable section

namespace LastAxisMax4

open Idealize.ShloMosaic Idealize.ShloMosaic.ValueIdx

/-- The index of an [a, b, c, d] array that lies over (p, q, r) of the reduced [a, b, c] with the last coordinate k
    put back is (p, q, r, k). -/
theorem lift_last {a b c d : ℕ} (h : (⟨4, ![a, b, c, d]⟩ : Shape).Reduces [3] (⟨3, ![a, b, c]⟩ : Shape))
    (p : Fin a) (q : Fin b) (r : Fin c) (k : Fin ((⟨4, ![a, b, c, d]⟩ : Shape).size 3)) :
    h.lift (ix3 p q r) k = ix4 p q r (⟨k.val, k.isLt⟩ : Fin d) := by
  funext x; apply Fin.ext
  fin_cases x <;> rfl

/-- The host's maximum-reduce along the last axis from the scalar −∞, at (p, q, r). -/
theorem hostMax_apply {a b c d : ℕ} (src : FVec Ideal ⟨4, ![a, b, c, d]⟩ .f32)
    (h' : (⟨4, ![a, b, c, d]⟩ : Shape).ReducesTo [3] (⟨3, ![a, b, c]⟩ : Shape))
    (h : (⟨4, ![a, b, c, d]⟩ : Shape).Reduces [3] (⟨3, ![a, b, c]⟩ : Shape)) (hu : 0 < (⟨0, ![]⟩ : Shape).numel)
    (p : Fin a) (q : Fin b) (r : Fin c) :
    Host.reduce (FloatOps.maximumf (F := Ideal) (φ := .f32)) src (constant (F := Ideal) ⟨0, ![]⟩ .f32 0xFF800000#32) h' hu (ix3 p q r)
      = (Finset.univ : Finset (Fin d)).fold max ⊥ (fun k => src (ix4 p q r k)) := by
  rw [Host.reduce_eq_fold_single (FloatOps.maximumf (F := Ideal) (φ := .f32)) src _ h' h hu (ix3 p q r),
    show (src ∘ h.lift (ix3 p q r)) = fun k : Fin d => src (ix4 p q r k) from
      funext fun k => congrArg src (lift_last h p q r k)]
  show Finset.fold max (Ideal.ofBits .f32 0xFF800000#32) _ _ = _
  rw [RowMax.ofBits_neg_inf]
  rfl

end LastAxisMax4

end
-- ==== Proof.RefAttn.lean ====
/-
  The reference's two results are the specification's weights and output, at every extended-real input.

  Read stage by stage: the scale 1 / √64 is 1/8; the scores are the scaled queries against the keys, replaced by
  the fill where the mask is set; the row maximum is taken from −∞ and joined once more with −∞ (which changes
  nothing: −∞ is the bottom); the exponentials are summed from 0 (which adds nothing); the weights are the
  quotients, and the output is their product with v.
-/
import proofs.«174252_j19688130085313_2_alg».proof.Proof.Gen.ReferenceIdeal.Read
import proofs.«174252_j19688130085313_2_alg».proof.Proof.AttnSpec
import proofs.«174252_j19688130085313_2_alg».proof.Proof.AttnConsts
import proofs.«174252_j19688130085313_2_alg».proof.Proof.LibLastAxisMax4

noncomputable section

namespace Cert.RefAttn

open Cert.ReferenceIdeal Cert.ReferenceIdeal.Gen Cert.ReferenceIdeal.Read
open Idealize.ShloMosaic Idealize.ShloMosaic.ValueIdx Idealize.ShloMosaic.StableHlo

variable (x0 x1 x2 : (⟨S2x16x2048x64, .f32⟩ : BufTy).Contents (Elt Ideal))
  (x3 : (⟨S2x1x2048x2048, .i1⟩ : BufTy).Contents (Elt Ideal))

/-- The masked, scaled score at (b, h, r, j). -/
theorem score_apply (b : Fin 2) (h : Fin 16) (r j : Fin 2048) :
    val_main_v5 (F := Ideal) x0 x1 x3 (ix4 b h r j) = AttnSpec.scoreRow x0 x1 x3 b h r j := by
  rw [val_main_v5_apply, val_main_call0_v0_apply, val_main_call0_v1_apply, val_main_cst_1_apply, val_main_v4_apply]
  have e0 : idx_main_call0_v0 (ix4 b h r j) = ix4 b (0 : Fin 1) r j :=
    funext fun a => Fin.ext (by match a with | ⟨0, _⟩ => rfl | ⟨1, _⟩ => rfl | ⟨2, _⟩ => rfl | ⟨3, _⟩ => rfl)
  rw [e0]
  unfold AttnSpec.scoreRow
  refine congrArg (Scalar.select _ _) (Finset.sum_congr rfl fun t _ => ?_)
  have el : lidx_main_v4 (ix4 b h r j) t = ix4 b h r t :=
    funext fun a => Fin.ext (by match a with | ⟨0, _⟩ => rfl | ⟨1, _⟩ => rfl | ⟨2, _⟩ => rfl | ⟨3, _⟩ => rfl)
  have er : ridx_main_v4 (ix4 b h r j) t = ix4 b h j t :=
    funext fun a => Fin.ext (by match a with | ⟨0, _⟩ => rfl | ⟨1, _⟩ => rfl | ⟨2, _⟩ => rfl | ⟨3, _⟩ => rfl)
  rw [el, er, val_main_v3_apply, val_main_v2_apply, val_main_v1_apply, val_main_cst_0_apply, val_main_v0_apply,
    val_main_cst_apply]
  show x0 (ix4 b h r t) * Ideal.div (Ideal.ofBits .f32 0x3F800000#32) (Ideal.sqrt (Ideal.ofBits .f32 0x42800000#32))
    * x1 (ix4 b h j t) = _
  rw [AttnConsts.scale_eq]

/-- The row maximum at (b, h, r). -/
theorem shift_apply (b : Fin 2) (h : Fin 16) (r : Fin 2048) :
    val_main_v8 (F := Ideal) x0 x1 x3 (ix3 b h r) = SoftmaxRecip.shift (AttnSpec.scoreRow x0 x1 x3 b h r) := by
  rw [val_main_v8_apply, val_main_v7_apply, val_main_cst_3_apply]
  unfold val_main_v6 val_main_cst_2
  rw [LastAxisMax4.hostMax_apply (val_main_v5 (F := Ideal) x0 x1 x3) reducesTo_S2x16x2048x2048_S2x16x2048_d3 (by decide) h_S_ b h r]
  show max (Ideal.ofBits .f32 0xFF800000#32) _ = _
  rw [RowMax.ofBits_neg_inf, max_bot_left]
  unfold SoftmaxRecip.shift
  exact congrArg (fun f => Finset.fold max ⊥ f Finset.univ) (funext fun k => score_apply x0 x1 x3 b h r k)

/-- The shifted exponential at (b, h, r, j). -/
theorem num_apply (b : Fin 2) (h : Fin 16) (r j : Fin 2048) :
    val_main_v12 (F := Ideal) x0 x1 x3 (ix4 b h r j) = SoftmaxRecip.num (AttnSpec.scoreRow x0 x1 x3 b h r) j := by
  rw [val_main_v12_apply, val_main_v11_apply, val_main_v10_apply, val_main_v9_apply]
  have e : idx_main_v9 (idx_main_v10 (ix4 b h r j)) = ix3 b h r :=
    funext fun a => Fin.ext (by match a with | ⟨0, _⟩ => rfl | ⟨1, _⟩ => rfl | ⟨2, _⟩ => rfl)
  rw [e, shift_apply, score_apply]
  rfl

/-- The weights at (b, h, r, j). -/
theorem weights_apply (b : Fin 2) (h : Fin 16) (r j : Fin 2048) :
    val_main_v16 (F := Ideal) x0 x1 x3 (ix4 b h r j) = AttnSpec.weights x0 x1 x3 (ix4 b h r j) := by
  rw [val_main_v16_apply, val_main_v15_apply, val_main_v14_apply, val_main_v13_apply, val_main_cst_4_apply, num_apply]
  have e : idx_main_v14 (idx_main_v15 (ix4 b h r j)) = ix3 b h r :=
    funext fun a => Fin.ext (by match a with | ⟨0, _⟩ => rfl | ⟨1, _⟩ => rfl | ⟨2, _⟩ => rfl)
  rw [e]
  have es : ∀ k : Fin 2048, idx_main_v13 (ix3 b h r) k = ix4 b h r k := fun k =>
    funext fun a => Fin.ext (by match a with | ⟨0, _⟩ => rfl | ⟨1, _⟩ => rfl | ⟨2, _⟩ => rfl | ⟨3, _⟩ => rfl)
  simp only [es, num_apply]
  show Ideal.div _ (Ideal.ofBits .f32 0x00000000#32 + _) = _
  rw [Ideal.ofBits_zero_f32, zero_add]
  rfl

/-- The reference's second result is the specification's weights. -/
theorem weights_eq : val_main_v16 (F := Ideal) x0 x1 x3 = AttnSpec.weights x0 x1 x3 := by
  funext i
  obtain ⟨b, h, r, j, rfl⟩ : ∃ (b : Fin 2) (h : Fin 16) (r j : Fin 2048), i = ix4 b h r j := ⟨i 0, i 1, i 2, i 3, eq_ix4 i⟩
  exact weights_apply x0 x1 x3 b h r j

/-- The reference's first result is the specification's output. -/
theorem output_eq : val_main_v17 (F := Ideal) x0 x1 x2 x3 = AttnSpec.output x0 x1 x2 x3 := by
  funext i
  obtain ⟨b, h, r, e, rfl⟩ : ∃ (b : Fin 2) (h : Fin 16) (r : Fin 2048) (e : Fin 64), i = ix4 b h r e := ⟨i 0, i 1, i 2, i 3, eq_ix4 i⟩
  rw [val_main_v17_apply, weights_eq]
  unfold AttnSpec.output
  refine Finset.sum_congr rfl fun k _ => ?_
  have el : lidx_main_v17 (ix4 b h r e) k = ix4 b h r k :=
    funext fun a => Fin.ext (by match a with | ⟨0, _⟩ => rfl | ⟨1, _⟩ => rfl | ⟨2, _⟩ => rfl | ⟨3, _⟩ => rfl)
  have er : ridx_main_v17 (ix4 b h r e) k = ix4 b h k e :=
    funext fun a => Fin.ext (by match a with | ⟨0, _⟩ => rfl | ⟨1, _⟩ => rfl | ⟨2, _⟩ => rfl | ⟨3, _⟩ => rfl)
  rw [el, er]

end Cert.RefAttn

end
-- ==== Proof.FiniteInputs.lean ====
/-
  What the precondition gives: every entry of q, k and v is a real number.

  The precondition is the conjunction of three tests "every |x| < +∞", one per float input, each a reduction by
  "and" over all entries. An extended real whose absolute value max(x, −x) is below +∞ is neither +∞ nor −∞
  (max(−∞, +∞) = +∞), so it is the image of a real.
-/
import proofs.«174252_j19688130085313_2_alg».proof.Pre_finite_inputs
import proofs.«174252_j19688130085313_2_alg».proof.Proof.Gen.Pre_finite_inputs
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs

instance : Subsingleton S_.Idx := ⟨fun _ _ => funext fun d => d.elim0⟩

/-- The word 0x7F800000 denotes +∞. -/
theorem ofBits_pos_inf : Ideal.ofBits .f32 0x7F800000#32 = (⊤ : EReal) := by simp [Ideal.ofBits, Ideal.ieee]

/-- An extended real whose absolute value is below +∞ is a real. -/
theorem real_of_abs_lt (x : EReal) (h : Ideal.cmp .olt (max x (-x)) (Ideal.ofBits .f32 0x7F800000#32) = 1#1) :
    ∃ r : ℝ, x = (r : EReal) := by
  rw [ofBits_pos_inf] at h
  induction x using EReal.rec with
  | bot => simp [Ideal.cmp] at h
  | top => simp [Ideal.cmp] at h
  | coe r => exact ⟨r, rfl⟩

/-- Under the precondition q, k and v hold real numbers only. -/
theorem real_entries (a0 a1 a2 : FVec Ideal S2x16x2048x64 .f32) (a3 : IVec S2x1x2048x2048 1)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  dsimp only [fn] at h0
  obtain ⟨hAB, hC⟩ := IntOp.andi_eq_one.1 h0
  obtain ⟨hA, hB⟩ := IntOp.andi_eq_one.1 hAB
  exact ⟨fun i => real_of_abs_lt _ (Host.reduce_andi_all _ _ _ _ _ hA i),
    fun i => real_of_abs_lt _ (Host.reduce_andi_all _ _ _ _ _ hB i),
    fun i => real_of_abs_lt _ (Host.reduce_andi_all _ _ _ _ _ hC i)⟩

end Cert.FiniteInputs

end
-- ==== Proof.lean ====
/-
  Masked scaled-dot-product attention over q, k, v : [2, 16, 2048, 64] and a mask [2, 1, 2048, 2048]: a kernel that
  computes, per (batch, query tile of 512 rows, head), the whole row softmax in one shot and both results
  (the weights [2, 16, 2048, 2048] and the output [2, 16, 2048, 64]), against the plain reference.

  On the extended reals both programs compute, for head (b, h) and query row r,
      s_j = mask(b, 0, r, j) ? fill : Σ_t (q(b, h, r, t) · 1/8) · k(b, h, j, t)        (fill ≈ −1e-9, a finite value),
      weights(b, h, r, j) = exp (s_j − max s) / Σ_k exp (s_k − max s),
      output(b, h, r, e)  = Σ_j weights(b, h, r, j) · v(b, h, j, e).
  They differ in three places, none of which changes the value under the precondition (finite inputs):
    • the scale: the kernel multiplies by the literal 0.125, the reference by 1 / √64, which is 1/8;
    • the row maximum: the reference joins it once more with −∞, the bottom element;
    • the normalisation: the kernel multiplies each exponential by the reciprocal 1 / Σ, the reference divides by Σ.
      On the extended reals these differ when Σ = 0 (all scores −∞). With finite q and k every score is a real,
      the row maximum is a real, every exponential is a positive real and so is Σ, and both are the real quotient.
  Changes of float format (the kernel narrows k, v, the scaled q and the weights before its two products) are the
  identity on the extended reals, and a product accumulated into a zero tile is the plain sum of products.

  The frames of the two kernel programs are the generated ones; the reference's frame is its generated run with the
  results dropped. The idealization rewrote nothing, so there is nothing to preserve. For the value claim the
  kernel's run is read block by block (what each grid point writes back is the specification restricted to its
  block; the 128 blocks tile each result), the reference's run stage by stage.
-/
import proofs.«174252_j19688130085313_2_alg».proof.Defs
import proofs.«174252_j19688130085313_2_alg».proof.Proof.Gen.Kernel
import proofs.«174252_j19688130085313_2_alg».proof.Proof.Gen.Kernel.Skeleton
import proofs.«174252_j19688130085313_2_alg».proof.Proof.Gen.Kernel.Launch
import proofs.«174252_j19688130085313_2_alg».proof.Proof.Gen.Kernel.Points
import proofs.«174252_j19688130085313_2_alg».proof.Proof.Gen.Kernel.Frame
import proofs.«174252_j19688130085313_2_alg».proof.Proof.Gen.KernelIdeal
import proofs.«174252_j19688130085313_2_alg».proof.Proof.Gen.KernelIdeal.Skeleton
import proofs.«174252_j19688130085313_2_alg».proof.Proof.Gen.KernelIdeal.Launch
import proofs.«174252_j19688130085313_2_alg».proof.Proof.Gen.KernelIdeal.Points
import proofs.«174252_j19688130085313_2_alg».proof.Proof.Gen.KernelIdeal.Frame
import proofs.«174252_j19688130085313_2_alg».proof.Proof.Gen.ReferenceIdeal
import proofs.«174252_j19688130085313_2_alg».proof.Proof.Gen.Pre_finite_inputs
import proofs.«174252_j19688130085313_2_alg».proof.Proof.Gen.KernelIdeal.Value
import proofs.«174252_j19688130085313_2_alg».proof.Proof.Gen.ReferenceIdeal.Run
import proofs.«174252_j19688130085313_2_alg».proof.Proof.Gen.ReferenceIdeal.Read
import proofs.«174252_j19688130085313_2_alg».proof.Proof.KernelBlocks
import proofs.«174252_j19688130085313_2_alg».proof.Proof.RefAttn
import proofs.«174252_j19688130085313_2_alg».proof.Proof.FiniteInputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Under the precondition q and k hold real numbers, so the kernel's two results end at the specification's output
    and weights of its arguments; the reference's end at the same functions of its own arguments at every input, and
    the two memories agree on the arguments. -/
theorem algebraic : Cert.algebraic_KernelIdeal_ReferenceIdeal := by
  intro m ρ m' ρ' hpre hagree
  have hreal : ∀ c : Dev Cert.KernelIdeal.nD,
      (∀ i, ∃ r : ℝ, Cert.KernelIdeal.Blocks.qArr m c i = (r : EReal))
        ∧ (∀ i, ∃ r : ℝ, Cert.KernelIdeal.Blocks.kArr m c i = (r : EReal)) := fun c =>
    have h := Cert.FiniteInputs.real_entries _ _ _ _ (hpre c)
    ⟨h.1, h.2.1⟩
  refine ⟨_, _, Cert.KernelIdeal.Blocks.run m ρ hreal, ?_⟩
  refine (θ_run Cert.ReferenceIdeal.defs _ _).mono (fun _ h c => ?_) (Cert.ReferenceIdeal.Value.run (F := Ideal) m' ρ')
  obtain ⟨a0, a1, a2, a3⟩ := hagree c
  refine ⟨(h c).1.trans ?_, (h c).2.1.trans ?_, (h c).2.2⟩
  · rw [Cert.ReferenceIdeal.Read.val_main_v17_eq, Cert.RefAttn.output_eq, a0, a1, a2, a3]
  · rw [Cert.ReferenceIdeal.Read.val_main_v16_eq, Cert.RefAttn.weights_eq, a0, a1, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
